-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel

variable [Facts]

def fn {F : FTy → Type} [FloatOps F] (main_arg0 : FVec F S4096x32x512 .f32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  main_v3
-- ==== Kernel.lean ====
abbrev S4096x32x512 : Shape := ⟨3, ![4096, 32, 512]⟩
abbrev S128x32x512 : Shape := ⟨3, ![128, 32, 512]⟩
abbrev S128x1x512 : Shape := ⟨3, ![128, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x32x512, .f32⟩
  | .hbm, ⟨1, _⟩ => ⟨S4096x32x512, .f32⟩
  | .local _ .vmem, ⟨0, _⟩ => ⟨S128x32x512, .f32⟩
  | .local _ .vmem, ⟨1, _⟩ => ⟨S128x32x512, .f32⟩
  | .local _ .vmem, ⟨2, _⟩ => ⟨S128x32x512, .f32⟩
  | .local _ .vmem, ⟨3, _⟩ => ⟨S128x32x512, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x32x512_S128x1x512_0_0_0 : ∀ a, (![0, 0, 0] : Fin 3 → Nat) a + S128x1x512.size a ≤ S128x32x512.size a
  h_S128x1x512 : 0 < S128x1x512.numel
  inb_S128x32x512_S128x32x512_0_0_0 : ∀ a, (![0, 0, 0] : Fin 3 → Nat) a + S128x32x512.size a ≤ S128x32x512.size a
  h_S128x32x512 : 0 < S128x32x512.numel
  broadcasts_S128x1x512_S128x32x512 : S128x1x512.Broadcasts S128x32x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x512.size a ≤ S4096x32x512.size a
  hwx0_0 : ∀ i : grid0.Coords, EltTy.bits .f32 = 32 ∨ (Rect.block (s := S4096x32x512) S128x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x512.size a ≤ S4096x32x512.size a
  hwx0_1 : ∀ i : grid0.Coords, EltTy.bits .f32 = 32 ∨ (Rect.block (s := S4096x32x512) S128x32x512.size (cc0_transform_1 i) (hinb0_1 i)).WholeWords (EltTy.packing .f32)

variable [Facts₀]

abbrev win0_0 : Pipeline.Window sig grid0 :=
  Pipeline.Window.ofSpec (Memref.whole main_arg0) S128x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S4096x32x512 : Shape := ⟨3, ![4096, 32, 512]⟩
abbrev S4096x1x512 : Shape := ⟨3, ![4096, 1, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S4096x1x512, .f32⟩
  | .hbm, ⟨2, _⟩ => ⟨S4096x32x512, .f32⟩
  | .hbm, ⟨3, _⟩ => ⟨S4096x32x512, .f32⟩
  | .hbm, ⟨4, _⟩ => ⟨S4096x32x512, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  slices_S4096x32x512_S4096x1x512_0_0_0 : S4096x32x512.Slices ![0, 0, 0] S4096x1x512
  bcast_S4096x1x512_S4096x32x512_0_1_2 : S4096x1x512.BroadcastsInDim S4096x32x512 (![0, 1, 2] : Fin 3 → Fin S4096x32x512.rank)

variable [Facts₀]

class Facts : Prop extends Facts₀ where

variable [Facts]
-- ==== Proof.TwiceLaw.lean ====
/-
  The one algebraic law of this certificate, on the extended reals: doubling a value and taking a second value away
  is the same as adding to the value its difference from the second one,

      2 · a − b  =  a + (a − b)        for all a, b in [−∞, +∞].

  No finiteness is needed. Doubling an extended real is adding it to itself (at ±∞ both sides are that infinity, on the
  reals it is the ring law), subtraction is addition of the negative, and addition of extended reals is associative
  everywhere, the corner ∞ − ∞ included. The float literal 2.0 denotes the real number 2.
-/
import Idealize.ShloMosaic.PureOps.Ideal

noncomputable section

namespace Cert.TwiceLaw

open Idealize.ShloMosaic

/-- The single-precision pattern of `2.0` (sign 0, exponent 128, significand 0) denotes the real number 2. -/
theorem ofBits_two : Ideal.ofBits .f32 0x40000000#32 = ((2 : ℝ) : EReal) := by
  simp [Ideal.ofBits, Ideal.ieee, -EReal.coe_mul]; norm_num

/-- Twice an extended real is the value added to itself: at −∞ and +∞ both sides are that infinity (2 is positive),
    and on a real number it is `2 r = r + r`. -/
theorem two_mul_ereal (a : EReal) : ((2 : ℝ) : EReal) * a = a + a := by
  induction a using EReal.rec with
  | bot => rw [EReal.coe_mul_bot_of_pos (by norm_num : (0 : ℝ) < 2), EReal.bot_add]
  | coe r => rw [← EReal.coe_mul, ← EReal.coe_add, _root_.two_mul]
  | top => rw [EReal.coe_mul_top_of_pos (by norm_num : (0 : ℝ) < 2), EReal.top_add_top]

/-- `2 a − b = a + (a − b)`: write the double as `a + a`, the differences as sums with `−b`, and re-associate. -/
theorem twice_sub (a b : EReal) : ((2 : ℝ) : EReal) * a - b = a + (a - b) := by
  rw [two_mul_ereal, sub_eq_add_neg, sub_eq_add_neg, add_assoc]

/-- The same law spelt with the float operations read at the ideal instance, the factor being the literal `2.0`:
    this is the shape in which the kernel's element and the reference's element meet. -/
theorem twice_sub_ideal (a b : Ideal .f32) :
    FloatOps.subf (FloatOps.mulf (FloatOps.ofBits (F := Ideal) .f32 0x40000000#32) a) b
      = FloatOps.addf a (FloatOps.subf a b) := by
  rw [Ideal.ofBits_def, ofBits_two]
  exact twice_sub a b

end Cert.TwiceLaw

end
-- ==== Proof.KernelBlock.lean ====
/-
  One grid point of the kernel. The body loads its whole [128, 32, 512] block `b` and, separately, the block's row 0
  (a [128, 1, 512] slab), and stores `2 · b − (row 0 laid along the 32 rows)`. Read at a block index `(p, j, k)`
  that is `2 · b (p, j, k) − b (p, 0, k)`, which on the extended reals is `b (p, j, k) + (b (p, j, k) − b (p, 0, k))`.
-/
import proofs.«129326_j85564338471083_2_alg».proof.Proof.Gen.KernelIdeal.Value
import proofs.«129326_j85564338471083_2_alg».proof.Proof.TwiceLaw

noncomputable section

namespace Cert.KernelIdeal.Block

open Cert.KernelIdeal Cert.KernelIdeal.Gen Idealize.ShloMosaic Idealize.ShloMosaic.TcCoe

/-- `(p, j, k) ↦ (p, 0, k)` inside a block. -/
abbrev firstRow (y : S128x32x512.Idx) : S128x32x512.Idx := fun a => match a with
  | ⟨0, _⟩ => ⟨(y 0).val, (y 0).isLt⟩
  | ⟨1, _⟩ => ⟨0, by show (0 : Nat) < 32; omega⟩
  | ⟨2, _⟩ => ⟨(y 2).val, (y 2).isLt⟩

/-- What the body leaves in the output's staging buffer, at a block index: the entry plus its offset from the row-0
    entry of the same batch row and lane. The generated reading of the store gives `2 · b y − (row-0 slab) (p, 0, k)`;
    the whole-block load reads `b` where it is asked, the slab load reads `b` at row 0; then the law. -/
theorem out_apply (b : Vec Ideal S128x32x512 .f32) (y : S128x32x512.Idx) :
    out0_1 (F := Ideal) b y
      = FloatOps.addf (F := Ideal) (φ := .f32) (b y) (FloatOps.subf (F := Ideal) (φ := .f32) (b y) (b (firstRow y))) := by
  unfold out0_1
  rw [Cert.KernelIdeal.Value.canon1_eq]
  have e0 : r0_1.emb (Cert.KernelIdeal.Value.ix1_0 y) = y := by
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have e1 : r0_0.emb (Cert.KernelIdeal.Value.ix1_1 y) = firstRow y := by
    funext a; apply Fin.ext
    match a with
    | ⟨0, _⟩ => show 0 + 1 * (y 0).val = (y 0).val; omega
    | ⟨1, _⟩ => show 0 + 1 * 0 = 0; omega
    | ⟨2, _⟩ => show 0 + 1 * (y 2).val = (y 2).val; omega
  show FloatOps.subf (F := Ideal) (φ := .f32) (FloatOps.mulf (F := Ideal) (φ := .f32) (FloatOps.ofBits (F := Ideal) .f32 0x40000000#32)
      (b (r0_1.emb (Cert.KernelIdeal.Value.ix1_0 y)))) (b (r0_0.emb (Cert.KernelIdeal.Value.ix1_1 y))) = _
  rw [e0, e1]
  exact Cert.TwiceLaw.twice_sub_ideal _ _

end Cert.KernelIdeal.Block

end
-- ==== Proof.RowOffset.lean ====
/-
  What both programs compute, as one function of the argument array `x : [4096, 32, 512]`:

      out (i, j, k) = x (i, j, k) + (x (i, j, k) − x (i, 0, k)),

  every entry plus its offset from the entry of row 0 in the same batch `i` and the same lane `k`. The function is
  stated with the float operations of an arbitrary instance; the reference is literally this term, and the kernel
  reaches it through the law of TwiceLaw.lean at the ideal instance.
-/
import Idealize.ShloMosaic.PureOps.Ideal

noncomputable section

namespace Cert.RowOffset

open Idealize.ShloMosaic

/-- The argument's and the result's shape. -/
abbrev Arr : Shape := ⟨3, ![4096, 32, 512]⟩

/-- `(i, j, k) ↦ (i, 0, k)`: the row-0 entry of the same batch and lane. -/
abbrev firstRow (i : Arr.Idx) : Arr.Idx := fun a => match a with
  | ⟨0, _⟩ => ⟨(i 0).val, (i 0).isLt⟩
  | ⟨1, _⟩ => ⟨0, by show (0 : Nat) < 32; omega⟩
  | ⟨2, _⟩ => ⟨(i 2).val, (i 2).isLt⟩

variable {F : FTy → Type} [FloatOps F]

/-- Every entry plus its offset from the row-0 entry of its batch and lane. -/
abbrev plusRowOffset (x : Arr.Idx → Elt F .f32) : Arr.Idx → Elt F .f32 :=
  fun i => FloatOps.addf (x i) (FloatOps.subf (x i) (x (firstRow i)))

end Cert.RowOffset

end
-- ==== Proof.KernelArray.lean ====
/-
  From the grid points to the whole result array. Point `t` of the 32 works on batch rows `128 t … 128 t + 127`,
  all 32 rows and all 512 lanes: the input block and the output block sit at the same place, so what the point writes
  back is that block of `plusRowOffset x` (row 0 of a block is row 0 of the array, the row axis being whole in every
  block). The 32 output blocks tile the array — index `(i, j, k)` lies in the block of point `i / 128` — so after the
  run the result array is `plusRowOffset x`, and the argument is as launched.
-/
import proofs.«129326_j85564338471083_2_alg».proof.Proof.Gen.KernelIdeal.Value
import proofs.«129326_j85564338471083_2_alg».proof.Proof.KernelBlock
import proofs.«129326_j85564338471083_2_alg».proof.Proof.RowOffset

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.RowOffset (plusRowOffset)

variable (m : (ℓ : Loc nD τ sig) → Buf (Elt Ideal) ℓ) (ρ : Dev nD → PrngReg)

/-- The two windows' block indices at every grid point, decided over the 32 points: both windows sit at the same
    batch block, and at block 0 of the row axis and of the lane axis. -/
theorem index_facts : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every one of the 32 batch blocks is some point's. -/
theorem index_onto : ∀ q : Fin 32, ∃ t : Fin cfg0.N, win0_1.index t = ![q.val, 0, 0] :=
  (by decide +kernel : ∀ q : Fin 32, ∃ t : Fin grid0.N, win0_1.index t = ![q.val, 0, 0])

/-- What point `t` writes back is block `t` of `plusRowOffset` of the argument array as the region finds it. -/
theorem flushed_eq (c : Dev nD) (t : Fin cfg0.N) :
    (dats m 0 c).flushed 1 t = ((cfg0.win 1).blk t).view.read (Elt Ideal) (plusRowOffset (F := Ideal) (V m c main_arg0)) := by
  rw [Cert.KernelIdeal.Value.flushed1]
  obtain ⟨e0, e1, e2, e3, e4⟩ := index_facts t
  funext j
  show out0_1 (iblk m c 0 t) j = plusRowOffset (F := Ideal) (V m c main_arg0) (((cfg0.win 1).blk t).view.emb j)
  rw [Cert.KernelIdeal.Block.out_apply]
  have h0 : ((cfg0.win 0).blk t).view.emb j = ((cfg0.win 1).blk t).view.emb j := by
    funext a; apply Fin.ext
    match a with
    | ⟨0, _⟩ => show win0_0.index t (0 : Fin 3) * 128 + 1 * (j 0).val = win0_1.index t (0 : Fin 3) * 128 + 1 * (j 0).val; omega
    | ⟨1, _⟩ => show win0_0.index t (1 : Fin 3) * 32 + 1 * (j 1).val = win0_1.index t (1 : Fin 3) * 32 + 1 * (j 1).val; omega
    | ⟨2, _⟩ => show win0_0.index t (2 : Fin 3) * 512 + 1 * (j 2).val = win0_1.index t (2 : Fin 3) * 512 + 1 * (j 2).val; omega
  have h1 : ((cfg0.win 0).blk t).view.emb (Cert.KernelIdeal.Block.firstRow j)
      = Cert.RowOffset.firstRow (((cfg0.win 1).blk t).view.emb j) := by
    funext a; apply Fin.ext
    match a with
    | ⟨0, _⟩ => show win0_0.index t (0 : Fin 3) * 128 + 1 * (j 0).val = win0_1.index t (0 : Fin 3) * 128 + 1 * (j 0).val; omega
    | ⟨1, _⟩ => show win0_0.index t (1 : Fin 3) * 32 + 1 * 0 = 0; omega
    | ⟨2, _⟩ => show win0_0.index t (2 : Fin 3) * 512 + 1 * (j 2).val = win0_1.index t (2 : Fin 3) * 512 + 1 * (j 2).val; omega
  show FloatOps.addf (F := Ideal) (φ := .f32) (V m c main_arg0 (((cfg0.win 0).blk t).view.emb j))
      (FloatOps.subf (F := Ideal) (φ := .f32) (V m c main_arg0 (((cfg0.win 0).blk t).view.emb j))
        (V m c main_arg0 (((cfg0.win 0).blk t).view.emb (Cert.KernelIdeal.Block.firstRow j))))
    = FloatOps.addf (F := Ideal) (φ := .f32) (V m c main_arg0 (((cfg0.win 1).blk t).view.emb j))
      (FloatOps.subf (F := Ideal) (φ := .f32) (V m c main_arg0 (((cfg0.win 1).blk t).view.emb j))
        (V m c main_arg0 (Cert.RowOffset.firstRow (((cfg0.win 1).blk t).view.emb j))))
  rw [h0, h1]

/-- An index of the array is in point `t`'s output block iff each coordinate is in the block's range on its axis. -/
theorem mem_blk (t : Fin cfg0.N) (i : S4096x32x512.Idx) :
    i ∈ ((cfg0.win 1).blk t).view.set ↔ ∀ a : Fin 3, win0_1.index t a * S128x32x512.size a ≤ (i a).val
      ∧ (i a).val < win0_1.index t a * S128x32x512.size a + S128x32x512.size a := by
  show i ∈ ((View.whole main_v0).slice (win0_1.rect t)).set ↔ _
  rw [View.set_slice_whole, Rect.mem_set_unit]
  exact Iff.rfl

/-- The output blocks tile the array: `(i, j, k)` is in the block of the point whose batch block is `i / 128`. -/
theorem cover (i : S4096x32x512.Idx) :
    ∃ t : Fin cfg0.N, (cfg0.win 1).flush t = true ∧ i ∈ ((cfg0.win 1).blk t).view.set := by
  have hi0 : (i 0).val < 4096 := (i 0).isLt
  have hi1 : (i 1).val < 32 := (i 1).isLt
  have hi2 : (i 2).val < 512 := (i 2).isLt
  obtain ⟨t, ht⟩ := index_onto ⟨(i 0).val / 128, by omega⟩
  have q0 : win0_1.index t (0 : Fin 3) = (i 0).val / 128 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 32 ≤ (i 1).val ∧ (i 1).val < win0_1.index t (1 : Fin 3) * 32 + 32; omega
  | ⟨2, _⟩ => show win0_1.index t (2 : Fin 3) * 512 ≤ (i 2).val ∧ (i 2).val < win0_1.index t (2 : Fin 3) * 512 + 512; omega

/-- The result array after the run is `plusRowOffset` of the argument as launched. -/
theorem final (c : Dev nD) :
    (dats m 0 c).arrAt 1 cfg0.N = plusRowOffset (F := Ideal) (m ((c : Thread nD τ).loc main_arg0)) := by
  rw [← V_main_arg0 m c]
  exact (dats m 0 c).arrAt_eq_of_cover 1 (plusRowOffset (F := Ideal) (V m c main_arg0)) (fun t _ => flushed_eq m c t) cover

/-- The kernel's run, read: the result array at `plusRowOffset` of the argument, the argument unchanged. -/
theorem run : θ_run defs (onTc (τ := τ) (main (F := Ideal))) ⟨m, fun _ => 0, ρ⟩ fun r => ∀ c : Dev nD,
      r.2.mem ((c : Thread nD τ).loc main_v0) = plusRowOffset (F := Ideal) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Array

end
-- ==== Proof.ReferenceValue.lean ====
/-
  The reference, read at an index. It slices row 0 out of the argument (`[4096, 1, 512]`), lays that slab along the 32
  rows again, subtracts it from the argument and adds the difference to the argument: at `(i, j, k)` that is
  `x (i, j, k) + (x (i, j, k) − x (i, 0, k))`, the slice followed by the broadcast reading the argument at `(i, 0, k)`.
-/
import proofs.«129326_j85564338471083_2_alg».proof.Proof.Gen.ReferenceIdeal.Read
import proofs.«129326_j85564338471083_2_alg».proof.Proof.RowOffset

noncomputable section

namespace Cert.ReferenceIdeal.RefValue

open Cert.ReferenceIdeal Cert.ReferenceIdeal.Gen Cert.ReferenceIdeal.Read Idealize.ShloMosaic Idealize.ShloMosaic.TcCoe

variable {F : FTy → Type} [FloatOps F]

/-- Through the broadcast and then the slice, result index `(i, j, k)` reads the argument at `(i, 0, k)`. -/
theorem slab_index (i : S4096x32x512.Idx) : idx_main_v0 (idx_main_v1 i) = Cert.RowOffset.firstRow i :=
  funext fun a => Fin.ext (by match a with | ⟨0, _⟩ => rfl | ⟨1, _⟩ => rfl | ⟨2, _⟩ => rfl)

/-- The reference's last stage is `plusRowOffset` of the argument. -/
theorem result_eq (x : (⟨S4096x32x512, .f32⟩ : BufTy).Contents (Elt F)) :
    val_main_v3 (F := F) x = Cert.RowOffset.plusRowOffset x := by
  funext i
  rw [val_main_v3_apply, val_main_v2_apply, val_main_v1_apply, val_main_v0_apply, slab_index]

end Cert.ReferenceIdeal.RefValue

end
-- ==== Proof.lean ====
/-
  The certificate: a kernel that computes `2 · x − x[:, 0:1, :]` block by block over `x : [4096, 32, 512]` against a
  reference that computes `x + (x − x[:, 0:1, :])` on the whole array.

  Read on the extended reals both are the one function `plusRowOffset x` (RowOffset.lean):
  `out (i, j, k) = x (i, j, k) + (x (i, j, k) − x (i, 0, k))`. The reference is that term literally, its slice and broadcast
  reading `x` at `(i, 0, k)` (ReferenceValue.lean). The kernel's grid point `t` handles batch rows `128 t … 128 t + 127`
  whole: at a block index it leaves `2 · b − b (p, 0, k)`, which is `b + (b − b (p, 0, k))` by the law
  `2 a − b = a + (a − b)`, valid for every pair of extended reals (TwiceLaw.lean, KernelBlock.lean); the 32 blocks tile
  the array (KernelArray.lean). The law needs no finiteness, so the precondition is never opened.

  The three frames: the two kernel programs' are the generated frame runs, the reference's is its generated run with the
  result dropped. The idealization rewrote nothing, so `preserves` is `True`.
-/
import proofs.«129326_j85564338471083_2_alg».proof.Defs
import proofs.«129326_j85564338471083_2_alg».proof.Proof.Gen.Kernel
import proofs.«129326_j85564338471083_2_alg».proof.Proof.Gen.Kernel.Frame
import proofs.«129326_j85564338471083_2_alg».proof.Proof.Gen.KernelIdeal
import proofs.«129326_j85564338471083_2_alg».proof.Proof.Gen.KernelIdeal.Frame
import proofs.«129326_j85564338471083_2_alg».proof.Proof.Gen.KernelIdeal.Value
import proofs.«129326_j85564338471083_2_alg».proof.Proof.Gen.ReferenceIdeal
import proofs.«129326_j85564338471083_2_alg».proof.Proof.Gen.ReferenceIdeal.Run
import proofs.«129326_j85564338471083_2_alg».proof.Proof.Gen.ReferenceIdeal.Read
import proofs.«129326_j85564338471083_2_alg».proof.Proof.Gen.Pre_finite_inputs
import proofs.«129326_j85564338471083_2_alg».proof.Proof.KernelArray
import proofs.«129326_j85564338471083_2_alg».proof.Proof.ReferenceValue
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `plusRowOffset` of the (agreeing) argument arrays. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, hagree c]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
